-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 75
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000x1, .f32⟩
  | .hbm, ⟨17, _⟩ => ⟨S_, .f32⟩
  | .hbm, ⟨18, _⟩ => ⟨S100000x1, .f32⟩
  | .hbm, ⟨19, _⟩ => ⟨S1600000x1, .i32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000x1, .f32⟩
  | .hbm, ⟨63, _⟩ => ⟨S_, .f32⟩
  | .hbm, ⟨64, _⟩ => ⟨S100000x1, .f32⟩
  | .hbm, ⟨65, _⟩ => ⟨S1600000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S_, .f32⟩
  | .hbm, ⟨95, _⟩ => ⟨S1600000x1, .f32⟩
  | .hbm, ⟨96, _⟩ => ⟨S_, .f32⟩
  | .hbm, ⟨97, _⟩ => ⟨S100000x1, .f32⟩
  | .hbm, ⟨98, _⟩ => ⟨S1600000x1, .i32⟩
  | .hbm, ⟨99, _⟩ => ⟨S100000x1, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibMeanNet.lean ====
/-
  A two-layer mean-aggregating graph network on the extended reals, layer by layer, as functions of whole arrays.

  A node's new features are a linear map of the MEAN of its in-neighbours' features, plus a bias row, plus another linear
  map of its own features: `conv a h wl wr b`, where `a` holds the aggregated rows, `h` the nodes' own rows, and each
  product is rows-times-matrix. The first layer floors that at `z` (`hidden`); the output layer first adds a side branch
  `r` (a plain linear map of the input features, `side`) and then floors (`outLayer`).

  Every entry of these depends on its own ROW of `a`, `h` and `r` only, so a block of rows of a layer is the layer of
  that block of rows (`conv_rows`, `hidden_rows`, `side_rows`, `outLayer_rows`): this is what lets a computation done
  row block by row block be read as one function of the whole arrays.

  The mean divides each row of the summed neighbour features by the number of in-neighbours floored at one
  (`meanRows`). The whole network, `net`, takes the neighbour SUM as a parameter `S` (any function of an array of node
  features) and the count vector `c`: nothing here depends on how the sum over edges is formed.
-/
import proofs.«181034_j9766755631343_1_alg».proof.Proof.LibPlainDot
import proofs.«181034_j9766755631343_1_alg».proof.Proof.LibRowBias

noncomputable section

namespace Cert.MeanNet

open Idealize.ShloMosaic Idealize.ShloMosaic.ValueIdx Cert.LibPlainDot Cert.LibRowBias

/-- An `M` by `N` array of extended reals. -/
abbrev Arr (M N : ℕ) : Type := (⟨2, ![M, N]⟩ : Shape).Idx → EReal

/-- One graph convolution before its activation: aggregated rows times `wl`, plus the bias row, plus own rows times `wr`. -/
def conv {M D : ℕ} (a h : Arr M D) (wl wr : Arr D D) (b : Arr 1 D) : Arr M D :=
  fun i => rowBias (rowsTimes a wl) b i + rowsTimes h wr i

/-- The first layer: the convolution floored at `z`. -/
def hidden {M D : ℕ} (z : EReal) (a h : Arr M D) (wl wr : Arr D D) (b : Arr 1 D) : Arr M D :=
  fun i => max (conv a h wl wr b i) z

/-- The side branch: rows times `w` plus the bias row. -/
def side {M D : ℕ} (x : Arr M D) (w : Arr D D) (b : Arr 1 D) : Arr M D := rowBias (rowsTimes x w) b

/-- The output layer: the convolution plus the side branch `r`, floored at `z`. -/
def outLayer {M D : ℕ} (z : EReal) (a h : Arr M D) (wl wr : Arr D D) (b : Arr 1 D) (r : Arr M D) : Arr M D :=
  fun i => max (conv a h wl wr b i + r i) z

/-- "`ab` is rows `o, …, o + R - 1` of `a`". -/
def RowsAt {M R D : ℕ} (o : ℕ) (a : Arr M D) (ab : Arr R D) : Prop :=
  ∀ (p : Fin R) (q : Fin D) (hp : o + p.val < M), ab (ix2 p q) = a (ix2 (⟨o + p.val, hp⟩ : Fin M) q)

/-- `RowsAt` at a pair of indices that name the same entry. -/
theorem RowsAt.apply {M R D : ℕ} {o : ℕ} {a : Arr M D} {ab : Arr R D} (ha : RowsAt o a ab)
    (y : (⟨2, ![R, D]⟩ : Shape).Idx) (i : (⟨2, ![M, D]⟩ : Shape).Idx) (h0 : (i 0).val = o + (y 0).val) (h1 : (i 1).val = (y 1).val) :
    ab y = a i := by
  have hM : o + (y 0).val < M := h0 ▸ idx2_lt0 i
  have ey : y = ix2 (⟨(y 0).val, idx2_lt0 y⟩ : Fin R) (⟨(y 1).val, idx2_lt1 y⟩ : Fin D) := by
    funext d; match d with | ⟨0, _⟩ => rfl | ⟨1, _⟩ => rfl
  have ei : i = ix2 (⟨o + (y 0).val, hM⟩ : Fin M) (⟨(y 1).val, idx2_lt1 y⟩ : Fin D) := by
    funext d; match d with | ⟨0, _⟩ => exact Fin.ext h0 | ⟨1, _⟩ => exact Fin.ext h1
  exact (congrArg ab ey).trans ((ha ⟨(y 0).val, idx2_lt0 y⟩ ⟨(y 1).val, idx2_lt1 y⟩ hM).trans (congrArg a ei.symm))

/-- A block of rows of the convolution is the convolution of that block of rows. -/
theorem conv_rows {M R D : ℕ} (o : ℕ) (a h : Arr M D) (ab hb : Arr R D) (wl wr : Arr D D) (b : Arr 1 D)
    (ha : RowsAt o a ab) (hh : RowsAt o h hb)
    (y : (⟨2, ![R, D]⟩ : Shape).Idx) (i : (⟨2, ![M, D]⟩ : Shape).Idx) (h0 : (i 0).val = o + (y 0).val) (h1 : (i 1).val = (y 1).val) :
    conv ab hb wl wr b y = conv a h wl wr b i := by
  unfold conv
  rw [rowBias_rows o (rowsTimes a wl) (rowsTimes ab wl) b
        (fun p q hp => rowsTimes_rows o a ab wl ha (ix2 p q) (ix2 (⟨o + p.val, hp⟩ : Fin M) q) rfl rfl) y i h0 h1,
      rowsTimes_rows o h hb wr hh y i h0 h1]

theorem hidden_rows {M R D : ℕ} (z : EReal) (o : ℕ) (a h : Arr M D) (ab hb : Arr R D) (wl wr : Arr D D) (b : Arr 1 D)
    (ha : RowsAt o a ab) (hh : RowsAt o h hb)
    (y : (⟨2, ![R, D]⟩ : Shape).Idx) (i : (⟨2, ![M, D]⟩ : Shape).Idx) (h0 : (i 0).val = o + (y 0).val) (h1 : (i 1).val = (y 1).val) :
    hidden z ab hb wl wr b y = hidden z a h wl wr b i := by
  unfold hidden
  rw [conv_rows o a h ab hb wl wr b ha hh y i h0 h1]

theorem side_rows {M R D : ℕ} (o : ℕ) (x : Arr M D) (xb : Arr R D) (w : Arr D D) (b : Arr 1 D) (hx : RowsAt o x xb)
    (y : (⟨2, ![R, D]⟩ : Shape).Idx) (i : (⟨2, ![M, D]⟩ : Shape).Idx) (h0 : (i 0).val = o + (y 0).val) (h1 : (i 1).val = (y 1).val) :
    side xb w b y = side x w b i :=
  rowBias_rows o (rowsTimes x w) (rowsTimes xb w) b
    (fun p q hp => rowsTimes_rows o x xb w hx (ix2 p q) (ix2 (⟨o + p.val, hp⟩ : Fin M) q) rfl rfl) y i h0 h1

theorem outLayer_rows {M R D : ℕ} (z : EReal) (o : ℕ) (a h r : Arr M D) (ab hb rb : Arr R D) (wl wr : Arr D D) (b : Arr 1 D)
    (ha : RowsAt o a ab) (hh : RowsAt o h hb) (hr : RowsAt o r rb)
    (y : (⟨2, ![R, D]⟩ : Shape).Idx) (i : (⟨2, ![M, D]⟩ : Shape).Idx) (h0 : (i 0).val = o + (y 0).val) (h1 : (i 1).val = (y 1).val) :
    outLayer z ab hb wl wr b rb y = outLayer z a h wl wr b r i := by
  unfold outLayer
  rw [conv_rows o a h ab hb wl wr b ha hh y i h0 h1, hr.apply y i h0 h1]

/-- Each row of the sums `s` divided by its count `c` floored at one: the mean over the in-neighbours (a node without
    any keeps its zero sum). -/
def meanRows {M D : ℕ} (s : Arr M D) (c : (⟨1, ![M]⟩ : Shape).Idx → EReal) : Arr M D :=
  fun i => Ideal.div (s i) (max (c (ix1 (⟨(i 0).val, idx2_lt0 i⟩ : Fin M))) 1)

/-- The network: `S` sums a feature array over each node's in-neighbours, `c` counts them. The side branch reads the
    input features; the first layer aggregates the input features, the output layer the first layer's result. -/
def net {M D : ℕ} (z : EReal) (S : Arr M D → Arr M D) (c : (⟨1, ![M]⟩ : Shape).Idx → EReal)
    (x : Arr M D) (ws wl₁ wr₁ wl₂ wr₂ : Arr D D) (bs b₁ b₂ : Arr 1 D) : Arr M D :=
  outLayer z (meanRows (S (hidden z (meanRows (S x) c) x wl₁ wr₁ b₁)) c) (hidden z (meanRows (S x) c) x wl₁ wr₁ b₁)
    wl₂ wr₂ b₂ (side x ws bs)

end Cert.MeanNet

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«181034_j9766755631343_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.LibSageRounds.lean ====
/-
  Three rounds of a mean-aggregating graph layer on the extended reals, and the spellings of one round.

  One round takes the nodes' feature rows `h`, replaces each node's row by the MEAN of its in-neighbours' rows
  (`A h`; how the mean over edges is formed is a parameter here), and returns
  `(A h) · wl + bias row + h · wr`, floored at `z` in the first two rounds (`layerFloor`) and left as it is in the
  last (`layerPlain`). `net3` chains three rounds.

  Two programs spell one round differently, and this file shows the spellings are one function:
  * the mean: one multiplies the summed rows by the column `1 / max(count, 1)` broadcast over the features, the other
    divides them by the column `max(count, 1)` broadcast the same way. Since `max(count, 1) ≥ 1` is never zero, the
    product with the reciprocal IS the quotient on every extended real, infinite sums included
    (`mean_spellings`): no finiteness is needed;
  * the dense part: on the host two `dot_general`s, a bias vector broadcast to one row and then over the rows, and a
    maximum with a broadcast scalar (`host_layer_plain`, `host_layer_floor`); in a kernel body two matrix products
    accumulated into the zero splat, of operands first narrowed to bf16 (the identity on extended reals), the bias
    vector recast to one row and broadcast, and a maximum with a splat (`body_layer_plain`, `body_layer_floor`).
    Both are `conv` / `hidden` of the arrays they read.
-/
import proofs.«181034_j9766755631343_1_alg».proof.Proof.LibMeanNet
import proofs.«181034_j9766755631343_1_alg».proof.Proof.LibRowBiasHost
import Idealize.ShloMosaic.Lib.Pipeline.Value
import Idealize.ShloMosaic.Lib.IdealHost
import Idealize.ShloMosaic.Lib.ValueLayout
import Idealize.ShloMosaic.Lib.ValueIdx
import Idealize.ShloMosaic.PureOps.Ideal.Laws

noncomputable section

namespace Cert.Sage

open Idealize.ShloMosaic Idealize.ShloMosaic.ValueIdx Cert.MeanNet Cert.LibPlainDot Cert.LibRowBias

/-- One round with the floor: the neighbourhood mean `A h` and the nodes' own rows `h` through `hidden`. -/
def layerFloor {M D : ℕ} (z : EReal) (A : Arr M D → Arr M D) (h : Arr M D) (wl wr : Arr D D) (b : Arr 1 D) : Arr M D :=
  hidden z (A h) h wl wr b

/-- One round without the floor. -/
def layerPlain {M D : ℕ} (A : Arr M D → Arr M D) (h : Arr M D) (wl wr : Arr D D) (b : Arr 1 D) : Arr M D :=
  conv (A h) h wl wr b

/-- Three rounds: floored, floored, plain. -/
def net3 {M D : ℕ} (z : EReal) (A : Arr M D → Arr M D) (x : Arr M D) (wl₀ wr₀ wl₁ wr₁ wl₂ wr₂ : Arr D D)
    (b₀ b₁ b₂ : Arr 1 D) : Arr M D :=
  layerPlain A (layerFloor z A (layerFloor z A x wl₀ wr₀ b₀) wl₁ wr₁ b₁) wl₂ wr₂ b₂

/-! ## The mean -/

/-- A column broadcast over `D` features reads, at `(p, q)`, the column at `p`. -/
theorem bcastCols_apply {α : Type} {M D : ℕ} (h2 : (⟨2, ![M, 1]⟩ : Shape).BroadcastsInDim ⟨2, ![M, D]⟩ ![0, 1])
    (x : (⟨2, ![M, 1]⟩ : Shape).Idx → α) (p : Fin M) (q : Fin D) :
    broadcastInDim ⟨2, ![M, D]⟩ ![0, 1] h2 x (ix2 p q) = x (ix2 p (0 : Fin 1)) := by
  refine broadcastInDim_apply ![0, 1] h2 x (ix2 p q) (ix2 p (0 : Fin 1)) (fun a => ?_)
  match a with
  | ⟨0, _⟩ =>
    show p.val = if M = 1 then 0 else p.val
    split
    · have := p.isLt; omega
    · rfl
  | ⟨1, _⟩ => show 0 = if (1 : ℕ) = 1 then 0 else q.val; rw [if_pos rfl]

/-- A count floored at one is not zero. -/
theorem floor_one_ne_zero (c : EReal) : max c 1 ≠ 0 :=
  ne_of_gt (lt_of_lt_of_le zero_lt_one (le_max_right c 1))

/-- The two spellings of the mean agree: the sums times the broadcast column `1 / max(c, 1)` are the sums divided by
    the broadcast column `max(c, 1)`, on every extended real. -/
theorem mean_spellings {M D : ℕ} (s : FVec Ideal ⟨2, ![M, D]⟩ .f32) (c : FVec Ideal ⟨2, ![M, 1]⟩ .f32)
    (h0 h0' h0'' : (⟨0, ![]⟩ : Shape).BroadcastsInDim ⟨2, ![M, 1]⟩ ![])
    (h2 h2' : (⟨2, ![M, 1]⟩ : Shape).BroadcastsInDim ⟨2, ![M, D]⟩ ![0, 1]) :
    mulf s (broadcastInDim ⟨2, ![M, D]⟩ ![0, 1] h2
        (Host.divf (broadcastInDim ⟨2, ![M, 1]⟩ ![] h0 (constant (F := Ideal) ⟨0, ![]⟩ .f32 0x3F800000#32))
          (maximumf c (broadcastInDim ⟨2, ![M, 1]⟩ ![] h0' (constant (F := Ideal) ⟨0, ![]⟩ .f32 0x3F800000#32)))))
      = Host.divf s (broadcastInDim ⟨2, ![M, D]⟩ ![0, 1] h2'
          (maximumf c (broadcastInDim ⟨2, ![M, 1]⟩ ![] h0'' (constant (F := Ideal) ⟨0, ![]⟩ .f32 0x3F800000#32)))) := by
  funext i
  obtain ⟨p, q, rfl⟩ : ∃ (p : Fin M) (q : Fin D), i = ix2 p q :=
    ⟨⟨(i 0).val, idx2_lt0 i⟩, ⟨(i 1).val, idx2_lt1 i⟩, by funext d; match d with | ⟨0, _⟩ => rfl | ⟨1, _⟩ => rfl⟩
  show s (ix2 p q) * broadcastInDim ⟨2, ![M, D]⟩ ![0, 1] h2
        (Host.divf (broadcastInDim ⟨2, ![M, 1]⟩ ![] h0 (constant (F := Ideal) ⟨0, ![]⟩ .f32 0x3F800000#32))
          (maximumf c (broadcastInDim ⟨2, ![M, 1]⟩ ![] h0' (constant (F := Ideal) ⟨0, ![]⟩ .f32 0x3F800000#32)))) (ix2 p q)
      = Ideal.div (s (ix2 p q)) (broadcastInDim ⟨2, ![M, D]⟩ ![0, 1] h2'
          (maximumf c (broadcastInDim ⟨2, ![M, 1]⟩ ![] h0'' (constant (F := Ideal) ⟨0, ![]⟩ .f32 0x3F800000#32))) (ix2 p q))
  rw [bcastCols_apply, bcastCols_apply, hostDivf_apply]
  show s (ix2 p q) * Ideal.div (broadcastInDim ⟨2, ![M, 1]⟩ ![] h0 (constant (F := Ideal) ⟨0, ![]⟩ .f32 0x3F800000#32) (ix2 p (0 : Fin 1)))
        (max (c (ix2 p (0 : Fin 1))) (broadcastInDim ⟨2, ![M, 1]⟩ ![] h0' (constant (F := Ideal) ⟨0, ![]⟩ .f32 0x3F800000#32) (ix2 p (0 : Fin 1))))
      = Ideal.div (s (ix2 p q))
        (max (c (ix2 p (0 : Fin 1))) (broadcastInDim ⟨2, ![M, 1]⟩ ![] h0'' (constant (F := Ideal) ⟨0, ![]⟩ .f32 0x3F800000#32) (ix2 p (0 : Fin 1))))
  simp only [broadcastInDim_scalar_apply]
  show s (ix2 p q) * Ideal.div (Ideal.ofBits .f32 0x3F800000#32) (max (c (ix2 p (0 : Fin 1))) (Ideal.ofBits .f32 0x3F800000#32))
      = Ideal.div (s (ix2 p q)) (max (c (ix2 p (0 : Fin 1))) (Ideal.ofBits .f32 0x3F800000#32))
  rw [Ideal.ofBits_one_f32, Ideal.mul_one_div (floor_one_ne_zero _)]

/-! ## The dense part on the host -/

/-- Two plain `dot_general`s and a twice-broadcast bias vector are `conv`. -/
theorem host_layer_plain {M D : ℕ} (d : DotDims ⟨2, ![M, D]⟩ ⟨2, ![D, D]⟩ ⟨2, ![M, D]⟩) (hd : d = DotDims.plain M D D)
    (prec : Option ContractPrecision)
    (a h : FVec Ideal ⟨2, ![M, D]⟩ .f32) (wl wr : FVec Ideal ⟨2, ![D, D]⟩ .f32) (b : FVec Ideal ⟨1, ![D]⟩ .f32)
    (h1 : (⟨1, ![D]⟩ : Shape).BroadcastsInDim ⟨2, ![1, D]⟩ ![1])
    (h2 : (⟨2, ![1, D]⟩ : Shape).BroadcastsInDim ⟨2, ![M, D]⟩ ![0, 1])
    (hc : (⟨1, ![D]⟩ : Shape).ShapeCasts ⟨2, ![1, D]⟩) :
    addf (addf (Host.dotGeneral d prec a wl)
          (broadcastInDim ⟨2, ![M, D]⟩ ![0, 1] h2 (broadcastInDim ⟨2, ![1, D]⟩ ![1] h1 b)))
        (Host.dotGeneral d prec h wr)
      = conv (M := M) (D := D) a h wl wr (shapeCast ⟨2, ![1, D]⟩ b hc) := by
  subst hd
  show addf (addf (FloatOps.dotGeneral (DotDims.plain M D D) prec .single a wl)
          (broadcastInDim ⟨2, ![M, D]⟩ ![0, 1] h2 (broadcastInDim ⟨2, ![1, D]⟩ ![1] h1 b)))
        (FloatOps.dotGeneral (DotDims.plain M D D) prec .single h wr) = _
  rw [dotGeneral_plain, dotGeneral_plain, addf_bcastRow (rowsTimes a wl) b h1 h2 hc]
  rfl

/-- With the maximum against a broadcast scalar word `w`: `hidden` at the word's value. -/
theorem host_layer_floor {M D : ℕ} (d : DotDims ⟨2, ![M, D]⟩ ⟨2, ![D, D]⟩ ⟨2, ![M, D]⟩) (hd : d = DotDims.plain M D D)
    (prec : Option ContractPrecision) (w : BitVec 32)
    (a h : FVec Ideal ⟨2, ![M, D]⟩ .f32) (wl wr : FVec Ideal ⟨2, ![D, D]⟩ .f32) (b : FVec Ideal ⟨1, ![D]⟩ .f32)
    (h0 : (⟨0, ![]⟩ : Shape).BroadcastsInDim ⟨2, ![M, D]⟩ ![])
    (h1 : (⟨1, ![D]⟩ : Shape).BroadcastsInDim ⟨2, ![1, D]⟩ ![1])
    (h2 : (⟨2, ![1, D]⟩ : Shape).BroadcastsInDim ⟨2, ![M, D]⟩ ![0, 1])
    (hc : (⟨1, ![D]⟩ : Shape).ShapeCasts ⟨2, ![1, D]⟩) :
    maximumf (addf (addf (Host.dotGeneral d prec a wl)
          (broadcastInDim ⟨2, ![M, D]⟩ ![0, 1] h2 (broadcastInDim ⟨2, ![1, D]⟩ ![1] h1 b)))
        (Host.dotGeneral d prec h wr))
        (broadcastInDim ⟨2, ![M, D]⟩ ![] h0 (constant (F := Ideal) ⟨0, ![]⟩ .f32 w))
      = hidden (M := M) (D := D) (Ideal.ofBits .f32 w) a h wl wr (shapeCast ⟨2, ![1, D]⟩ b hc) := by
  rw [host_layer_plain d hd prec a h wl wr b h1 h2 hc]
  funext i
  show max (conv a h wl wr (shapeCast ⟨2, ![1, D]⟩ b hc) i)
      (broadcastInDim ⟨2, ![M, D]⟩ ![] h0 (constant (F := Ideal) ⟨0, ![]⟩ .f32 w) i) = _
  rw [broadcastInDim_scalar_apply]
  rfl

/-! ## The dense part in a kernel body -/

/-- Two matrix products into the zero splat, of operands narrowed to bf16, and the bias vector recast to one row and
    broadcast over the block's rows, are `conv` of the block. -/
theorem body_layer_plain {R D : ℕ} (d : DotDims ⟨2, ![R, D]⟩ ⟨2, ![D, D]⟩ ⟨2, ![R, D]⟩) (hd : d = DotDims.plain R D D)
    (prec : Option ContractPrecision)
    (a h : FVec Ideal ⟨2, ![R, D]⟩ .f32) (wl wr : FVec Ideal ⟨2, ![D, D]⟩ .f32) (b : FVec Ideal ⟨1, ![D]⟩ .f32)
    (ht : FTy.bits .bf16 < FTy.bits .f32)
    (hc : (⟨1, ![D]⟩ : Shape).ShapeCasts ⟨2, ![1, D]⟩)
    (hb : (⟨2, ![1, D]⟩ : Shape).Broadcasts ⟨2, ![R, D]⟩) :
    addf (addf (matmul d prec (truncf .bf16 a ht) (truncf .bf16 wl ht) (constant ⟨2, ![R, D]⟩ .f32 0x00000000#32))
          (broadcastTo ⟨2, ![R, D]⟩ (shapeCast ⟨2, ![1, D]⟩ b hc) hb))
        (matmul d prec (truncf .bf16 h ht) (truncf .bf16 wr ht) (constant ⟨2, ![R, D]⟩ .f32 0x00000000#32))
      = conv (M := R) (D := D) a h wl wr (shapeCast ⟨2, ![1, D]⟩ b hc) := by
  subst hd
  show addf (addf (FloatOps.matmul (DotDims.plain R D D) prec (truncf .bf16 a ht) (truncf .bf16 wl ht) (constant ⟨2, ![R, D]⟩ .f32 0x00000000#32))
          (broadcastTo ⟨2, ![R, D]⟩ (shapeCast ⟨2, ![1, D]⟩ b hc) hb))
        (FloatOps.matmul (DotDims.plain R D D) prec (truncf .bf16 h ht) (truncf .bf16 wr ht) (constant ⟨2, ![R, D]⟩ .f32 0x00000000#32)) = _
  rw [matmul_zero_plain, matmul_zero_plain]
  funext i
  obtain ⟨p, q, rfl⟩ : ∃ (p : Fin R) (q : Fin D), i = ix2 p q :=
    ⟨⟨(i 0).val, idx2_lt0 i⟩, ⟨(i 1).val, idx2_lt1 i⟩, by funext e; match e with | ⟨0, _⟩ => rfl | ⟨1, _⟩ => rfl⟩
  show rowsTimes (truncf .bf16 a ht) (truncf .bf16 wl ht) (ix2 p q)
        + broadcastTo ⟨2, ![R, D]⟩ (shapeCast ⟨2, ![1, D]⟩ b hc) hb (ix2 p q)
        + rowsTimes (truncf .bf16 h ht) (truncf .bf16 wr ht) (ix2 p q) = _
  rw [broadcastTo_1b_ab_apply]
  rfl

/-- With the maximum against the splat of a scalar word `w`: `hidden` of the block at the word's value. -/
theorem body_layer_floor {R D : ℕ} (d : DotDims ⟨2, ![R, D]⟩ ⟨2, ![D, D]⟩ ⟨2, ![R, D]⟩) (hd : d = DotDims.plain R D D)
    (prec : Option ContractPrecision) (w : BitVec 32)
    (a h : FVec Ideal ⟨2, ![R, D]⟩ .f32) (wl wr : FVec Ideal ⟨2, ![D, D]⟩ .f32) (b : FVec Ideal ⟨1, ![D]⟩ .f32)
    (ht : FTy.bits .bf16 < FTy.bits .f32)
    (hc : (⟨1, ![D]⟩ : Shape).ShapeCasts ⟨2, ![1, D]⟩)
    (hb : (⟨2, ![1, D]⟩ : Shape).Broadcasts ⟨2, ![R, D]⟩) :
    maximumf (addf (addf (matmul d prec (truncf .bf16 a ht) (truncf .bf16 wl ht) (constant ⟨2, ![R, D]⟩ .f32 0x00000000#32))
          (broadcastTo ⟨2, ![R, D]⟩ (shapeCast ⟨2, ![1, D]⟩ b hc) hb))
        (matmul d prec (truncf .bf16 h ht) (truncf .bf16 wr ht) (constant ⟨2, ![R, D]⟩ .f32 0x00000000#32)))
        (broadcast ⟨2, ![R, D]⟩ (Scalar.ofBits (F := Ideal) .f32 w))
      = hidden (M := R) (D := D) (Ideal.ofBits .f32 w) a h wl wr (shapeCast ⟨2, ![1, D]⟩ b hc) := by
  rw [body_layer_plain d hd prec a h wl wr b ht hc hb]
  rfl

/-! ## A block of rows of a round is the round of the blocks

  A row block is read through embeddings: `e₀ y`, `e₁ y` send an index `y` of the block to the index of the whole
  array it holds (row offset `o`, same column), `e₅` does the same for the result, and the weights and the bias are
  read whole (`e₂`, `e₃`, `e₄` the identity). Then the round of the blocks, at `y`, is the round of the whole arrays at
  `e₅ y`: an entry of a round depends on its own row of the two row arrays only. -/

section Blocks

variable {N R D : ℕ} (A H : Arr N D) (Wl Wr : Arr D D) (B : (⟨1, ![D]⟩ : Shape).Idx → EReal)
  (hc : (⟨1, ![D]⟩ : Shape).ShapeCasts ⟨2, ![1, D]⟩)
  (e₀ e₁ e₅ : (⟨2, ![R, D]⟩ : Shape).Idx → (⟨2, ![N, D]⟩ : Shape).Idx)
  (e₂ e₄ : (⟨2, ![D, D]⟩ : Shape).Idx → (⟨2, ![D, D]⟩ : Shape).Idx)
  (e₃ : (⟨1, ![D]⟩ : Shape).Idx → (⟨1, ![D]⟩ : Shape).Idx) (o : ℕ)

/-- Reading an array through an embedding that shifts rows by `o` gives rows `o, …, o + R - 1` of it. -/
theorem rowsAt_of_emb (e : (⟨2, ![R, D]⟩ : Shape).Idx → (⟨2, ![N, D]⟩ : Shape).Idx)
    (he : ∀ y, ((e y) 0).val = o + (y 0).val ∧ ((e y) 1).val = (y 1).val) (X : Arr N D) :
    RowsAt o X (fun y => X (e y)) := fun p q hp =>
  congrArg X (funext fun a => Fin.ext (by
    match a with
    | ⟨0, _⟩ => exact (he (ix2 p q)).1
    | ⟨1, _⟩ => exact (he (ix2 p q)).2))

theorem block_conv
    (h₀ : ∀ y, ((e₀ y) 0).val = o + (y 0).val ∧ ((e₀ y) 1).val = (y 1).val)
    (h₁ : ∀ y, ((e₁ y) 0).val = o + (y 0).val ∧ ((e₁ y) 1).val = (y 1).val)
    (h₅ : ∀ y, ((e₅ y) 0).val = o + (y 0).val ∧ ((e₅ y) 1).val = (y 1).val)
    (h₂ : ∀ y, e₂ y = y) (h₄ : ∀ y, e₄ y = y) (h₃ : ∀ y, e₃ y = y) (j : (⟨2, ![R, D]⟩ : Shape).Idx) :
    conv (M := R) (D := D) (fun y => A (e₀ y)) (fun y => H (e₁ y)) (fun y => Wl (e₂ y)) (fun y => Wr (e₄ y))
        (shapeCast ⟨2, ![1, D]⟩ (fun y => B (e₃ y)) hc) j
      = conv A H Wl Wr (shapeCast ⟨2, ![1, D]⟩ B hc) (e₅ j) := by
  have w2 : (fun y => Wl (e₂ y)) = Wl := funext fun y => by rw [h₂]
  have w4 : (fun y => Wr (e₄ y)) = Wr := funext fun y => by rw [h₄]
  have w3 : (fun y => B (e₃ y)) = B := funext fun y => by rw [h₃]
  rw [w2, w4, w3]
  exact conv_rows o A H _ _ Wl Wr _ (rowsAt_of_emb o e₀ h₀ A) (rowsAt_of_emb o e₁ h₁ H) j (e₅ j) (h₅ j).1 (h₅ j).2

theorem block_hidden (z : EReal)
    (h₀ : ∀ y, ((e₀ y) 0).val = o + (y 0).val ∧ ((e₀ y) 1).val = (y 1).val)
    (h₁ : ∀ y, ((e₁ y) 0).val = o + (y 0).val ∧ ((e₁ y) 1).val = (y 1).val)
    (h₅ : ∀ y, ((e₅ y) 0).val = o + (y 0).val ∧ ((e₅ y) 1).val = (y 1).val)
    (h₂ : ∀ y, e₂ y = y) (h₄ : ∀ y, e₄ y = y) (h₃ : ∀ y, e₃ y = y) (j : (⟨2, ![R, D]⟩ : Shape).Idx) :
    hidden (M := R) (D := D) z (fun y => A (e₀ y)) (fun y => H (e₁ y)) (fun y => Wl (e₂ y)) (fun y => Wr (e₄ y))
        (shapeCast ⟨2, ![1, D]⟩ (fun y => B (e₃ y)) hc) j
      = hidden z A H Wl Wr (shapeCast ⟨2, ![1, D]⟩ B hc) (e₅ j) := by
  unfold Cert.MeanNet.hidden
  rw [block_conv A H Wl Wr B hc e₀ e₁ e₅ e₂ e₄ e₃ o h₀ h₁ h₅ h₂ h₄ h₃ j]

end Blocks

end Cert.Sage

end
-- ==== Proof.Round0.lean ====
/-
  What pallas region 0 leaves in its output array: the first round: the mean rows of the input features and the input features themselves, through one dense layer.

  The region walks 20 row blocks of 5000 nodes. At block `t` the body reads rows `5000 t … 5000 t + 4999` of the two
  row arrays, the two weight matrices and the bias vector whole, and stores one layer of what it read
  (`payload`: LibSageRounds' body form). The index maps are decided over the 20 points (`idx_facts`): the row arrays and
  the output move with `t`, the weights and the bias stay at block 0. An entry of a layer depends on its own row of
  the row arrays only, so what point `t` writes back is block `t` of the layer of the WHOLE arrays (`flushed_eq`);
  the 20 blocks tile the output (`cover`), hence the output array ends as that layer of the arrays the region finds
  (`final`), whatever those are (`V` is a parameter).
-/
import proofs.«181034_j9766755631343_1_alg».proof.Proof.KernelIdealFrameP
import proofs.«181034_j9766755631343_1_alg».proof.Proof.LibSageRounds
import Idealize.ShloMosaic.Lib.Pipeline.Value

set_option maxRecDepth 16384

noncomputable section

namespace Cert.KernelIdeal.Round0

open Cert.KernelIdeal Cert.KernelIdeal.Gen Cert.KernelIdeal.GenP Idealize.ShloMosaic Idealize.ShloMosaic.TcCoe Idealize.SL.Sem
open Idealize.ShloMosaic.Pipeline (Dat)
open Cert.MeanNet Cert.Sage

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The body's stored value is one layer of the blocks it loaded (a shape cast to the same shape is the identity). -/
theorem payload (x0 x1 : FVec Ideal S5000x128 .f32) (x2 x4 : FVec Ideal S128x128 .f32) (x3 : FVec Ideal S128 .f32) :
    k0_pay1 (F := Ideal) x0 x1 x2 x4 x3
      = hidden (M := 5000) (D := 128) (Ideal.ofBits .f32 0x00000000#32) x0 x1 x2 x4 (shapeCast S1x128 x3 shapeCasts_S128_S1x128) := by
  unfold k0_pay1
  simp only [shapeCast_self]
  exact body_layer_floor dot_S5000x128_S128x128_S5000x128_1_0_0_1_n_n rfl none 0x00000000#32 x0 x1 x2 x4 x3 bitsLt_bf16_f32 shapeCasts_S128_S1x128 broadcasts_S1x128_S5000x128

/-- The printed index maps over the 20 grid points: the row windows and the output sit at block `t`, column block 0;
    the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer of the whole arrays. -/
theorem flushed_eq (c : Dev nD) (t : Fin cfg0.N) :
    (dat0 V c).flushed 5 t = ((cfg0.win 5).blk t).view.read (Elt Ideal)
      (hidden (M := 100000) (D := 128) (Ideal.ofBits .f32 0x00000000#32) (V c main_v23) (V c main_arg0) (V c main_arg2) (V c main_arg4) (shapeCast S1x128 (V c main_arg3) shapeCasts_S128_S1x128)) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  rw [payload]
  obtain ⟨f0, f1, f2, f3, f4, f5, f6, f7, f8, f9, f10⟩ := idx_facts t
  funext j
  show hidden (M := 5000) (D := 128) (Ideal.ofBits .f32 0x00000000#32)
      (fun y => V c main_v23 (((cfg0.win 0).blk t).view.emb y)) (fun y => V c main_arg0 (((cfg0.win 1).blk t).view.emb y))
      (fun y => V c main_arg2 (((cfg0.win 2).blk t).view.emb y)) (fun y => V c main_arg4 (((cfg0.win 4).blk t).view.emb y))
      (shapeCast S1x128 (fun y => V c main_arg3 (((cfg0.win 3).blk t).view.emb y)) shapeCasts_S128_S1x128) j
    = hidden (M := 100000) (D := 128) (Ideal.ofBits .f32 0x00000000#32) (V c main_v23) (V c main_arg0) (V c main_arg2) (V c main_arg4) (shapeCast S1x128 (V c main_arg3) shapeCasts_S128_S1x128) (((cfg0.win 5).blk t).view.emb j)
  refine block_hidden (V c main_v23) (V c main_arg0) (V c main_arg2) (V c main_arg4) (V c main_arg3) shapeCasts_S128_S1x128
    _ _ _ _ _ _ (t.val * 5000) (Ideal.ofBits .f32 0x00000000#32) ?_ ?_ ?_ ?_ ?_ ?_ j
  · intro y
    exact ⟨by show win0_0.index t (0 : Fin 2) * 5000 + 1 * (y 0).val = t.val * 5000 + (y 0).val; omega,
      by show win0_0.index t (1 : Fin 2) * 128 + 1 * (y 1).val = (y 1).val; omega⟩
  · intro y
    exact ⟨by show win0_1.index t (0 : Fin 2) * 5000 + 1 * (y 0).val = t.val * 5000 + (y 0).val; omega,
      by show win0_1.index t (1 : Fin 2) * 128 + 1 * (y 1).val = (y 1).val; omega⟩
  · intro y
    exact ⟨by show win0_5.index t (0 : Fin 2) * 5000 + 1 * (y 0).val = t.val * 5000 + (y 0).val; omega,
      by show win0_5.index t (1 : Fin 2) * 128 + 1 * (y 1).val = (y 1).val; omega⟩
  · intro y
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  · intro y
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  · intro y
    funext a; apply Fin.ext
    match a with
    | ⟨0, _⟩ => show win0_3.index t (0 : Fin 1) * 128 + 1 * (y 0).val = (y 0).val; omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- The 20 row blocks tile the output array: row `r` is in block `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  refine ⟨⟨(i 0).val / 5000, hN⟩, flush0_5 _, ?_⟩
  obtain ⟨f0, f1, f2, f3, f4, f5, f6, f7, f8, f9, f10⟩ := idx_facts ⟨(i 0).val / 5000, hN⟩
  rw [mem_blk]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    rw [f9]
    show (i 0).val / 5000 * 5000 ≤ (i 0).val ∧ (i 0).val < (i 0).val / 5000 * 5000 + 5000
    omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    rw [f10]
    omega

/-- The output array after the region: the layer of the arrays the region finds. -/
theorem final (c : Dev nD) : (dat0 V c).arrAt 5 cfg0.N
    = hidden (M := 100000) (D := 128) (Ideal.ofBits .f32 0x00000000#32) (V c main_v23) (V c main_arg0) (V c main_arg2) (V c main_arg4) (shapeCast S1x128 (V c main_arg3) shapeCasts_S128_S1x128) :=
  (dat0 V c).arrAt_eq_of_cover 5 _ (fun t _ => flushed_eq V c t) cover

end Cert.KernelIdeal.Round0

end
-- ==== Proof.Round1.lean ====
/-
  What pallas region 1 leaves in its output array: the second round: the mean rows of the first round's result and that result itself, through one dense layer.

  The region walks 20 row blocks of 5000 nodes. At block `t` the body reads rows `5000 t … 5000 t + 4999` of the two
  row arrays, the two weight matrices and the bias vector whole, and stores one layer of what it read
  (`payload`: LibSageRounds' body form). The index maps are decided over the 20 points (`idx_facts`): the row arrays and
  the output move with `t`, the weights and the bias stay at block 0. An entry of a layer depends on its own row of
  the row arrays only, so what point `t` writes back is block `t` of the layer of the WHOLE arrays (`flushed_eq`);
  the 20 blocks tile the output (`cover`), hence the output array ends as that layer of the arrays the region finds
  (`final`), whatever those are (`V` is a parameter).
-/
import proofs.«181034_j9766755631343_1_alg».proof.Proof.KernelIdealFrameP
import proofs.«181034_j9766755631343_1_alg».proof.Proof.LibSageRounds
import Idealize.ShloMosaic.Lib.Pipeline.Value

set_option maxRecDepth 16384

noncomputable section

namespace Cert.KernelIdeal.Round1

open Cert.KernelIdeal Cert.KernelIdeal.Gen Cert.KernelIdeal.GenP Idealize.ShloMosaic Idealize.ShloMosaic.TcCoe Idealize.SL.Sem
open Idealize.ShloMosaic.Pipeline (Dat)
open Cert.MeanNet Cert.Sage

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The body's stored value is one layer of the blocks it loaded (a shape cast to the same shape is the identity). -/
theorem payload (x0 x1 : FVec Ideal S5000x128 .f32) (x2 x4 : FVec Ideal S128x128 .f32) (x3 : FVec Ideal S128 .f32) :
    k1_pay1 (F := Ideal) x0 x1 x2 x4 x3
      = hidden (M := 5000) (D := 128) (Ideal.ofBits .f32 0x00000000#32) x0 x1 x2 x4 (shapeCast S1x128 x3 shapeCasts_S128_S1x128) := by
  unfold k1_pay1
  simp only [shapeCast_self]
  exact body_layer_floor dot_S5000x128_S128x128_S5000x128_1_0_0_1_n_n rfl none 0x00000000#32 x0 x1 x2 x4 x3 bitsLt_bf16_f32 shapeCasts_S128_S1x128 broadcasts_S1x128_S5000x128

/-- The printed index maps over the 20 grid points: the row windows and the output sit at block `t`, column block 0;
    the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the whole arrays. -/
theorem flushed_eq (c : Dev nD) (t : Fin cfg1.N) :
    (dat1 V c).flushed 5 t = ((cfg1.win 5).blk t).view.read (Elt Ideal)
      (hidden (M := 100000) (D := 128) (Ideal.ofBits .f32 0x00000000#32) (V c main_v36) (V c main_v24) (V c main_arg5) (V c main_arg7) (shapeCast S1x128 (V c main_arg6) shapeCasts_S128_S1x128)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  rw [payload]
  obtain ⟨f0, f1, f2, f3, f4, f5, f6, f7, f8, f9, f10⟩ := idx_facts t
  funext j
  show hidden (M := 5000) (D := 128) (Ideal.ofBits .f32 0x00000000#32)
      (fun y => V c main_v36 (((cfg1.win 0).blk t).view.emb y)) (fun y => V c main_v24 (((cfg1.win 1).blk t).view.emb y))
      (fun y => V c main_arg5 (((cfg1.win 2).blk t).view.emb y)) (fun y => V c main_arg7 (((cfg1.win 4).blk t).view.emb y))
      (shapeCast S1x128 (fun y => V c main_arg6 (((cfg1.win 3).blk t).view.emb y)) shapeCasts_S128_S1x128) j
    = hidden (M := 100000) (D := 128) (Ideal.ofBits .f32 0x00000000#32) (V c main_v36) (V c main_v24) (V c main_arg5) (V c main_arg7) (shapeCast S1x128 (V c main_arg6) shapeCasts_S128_S1x128) (((cfg1.win 5).blk t).view.emb j)
  refine block_hidden (V c main_v36) (V c main_v24) (V c main_arg5) (V c main_arg7) (V c main_arg6) shapeCasts_S128_S1x128
    _ _ _ _ _ _ (t.val * 5000) (Ideal.ofBits .f32 0x00000000#32) ?_ ?_ ?_ ?_ ?_ ?_ j
  · intro y
    exact ⟨by show win1_0.index t (0 : Fin 2) * 5000 + 1 * (y 0).val = t.val * 5000 + (y 0).val; omega,
      by show win1_0.index t (1 : Fin 2) * 128 + 1 * (y 1).val = (y 1).val; omega⟩
  · intro y
    exact ⟨by show win1_1.index t (0 : Fin 2) * 5000 + 1 * (y 0).val = t.val * 5000 + (y 0).val; omega,
      by show win1_1.index t (1 : Fin 2) * 128 + 1 * (y 1).val = (y 1).val; omega⟩
  · intro y
    exact ⟨by show win1_5.index t (0 : Fin 2) * 5000 + 1 * (y 0).val = t.val * 5000 + (y 0).val; omega,
      by show win1_5.index t (1 : Fin 2) * 128 + 1 * (y 1).val = (y 1).val; omega⟩
  · intro y
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  · intro y
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  · intro y
    funext a; apply Fin.ext
    match a with
    | ⟨0, _⟩ => show win1_3.index t (0 : Fin 1) * 128 + 1 * (y 0).val = (y 0).val; omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v37).slice (win1_5.rect t)).set ↔ _
  rw [View.set_slice_whole, Rect.mem_set_unit]
  exact Iff.rfl

/-- The 20 row blocks tile the output array: row `r` is in block `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := by rw [show cfg1.N = 20 from N_1]; omega
  refine ⟨⟨(i 0).val / 5000, hN⟩, flush1_5 _, ?_⟩
  obtain ⟨f0, f1, f2, f3, f4, f5, f6, f7, f8, f9, f10⟩ := idx_facts ⟨(i 0).val / 5000, hN⟩
  rw [mem_blk]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    rw [f9]
    show (i 0).val / 5000 * 5000 ≤ (i 0).val ∧ (i 0).val < (i 0).val / 5000 * 5000 + 5000
    omega
  | ⟨1, _⟩ =>
    show win1_5.index ⟨(i 0).val / 5000, hN⟩ (1 : Fin 2) * 128 ≤ (i 1).val
      ∧ (i 1).val < win1_5.index ⟨(i 0).val / 5000, hN⟩ (1 : Fin 2) * 128 + 128
    rw [f10]
    omega

/-- The output array after the region: the layer of the arrays the region finds. -/
theorem final (c : Dev nD) : (dat1 V c).arrAt 5 cfg1.N
    = hidden (M := 100000) (D := 128) (Ideal.ofBits .f32 0x00000000#32) (V c main_v36) (V c main_v24) (V c main_arg5) (V c main_arg7) (shapeCast S1x128 (V c main_arg6) shapeCasts_S128_S1x128) :=
  (dat1 V c).arrAt_eq_of_cover 5 _ (fun t _ => flushed_eq V c t) cover

end Cert.KernelIdeal.Round1

end
-- ==== Proof.Round2.lean ====
/-
  What pallas region 2 leaves in its output array: the last round, which has no floor: the mean rows of the second round's result and that result itself, through one dense layer.

  The region walks 20 row blocks of 5000 nodes. At block `t` the body reads rows `5000 t … 5000 t + 4999` of the two
  row arrays, the two weight matrices and the bias vector whole, and stores one layer of what it read
  (`payload`: LibSageRounds' body form). The index maps are decided over the 20 points (`idx_facts`): the row arrays and
  the output move with `t`, the weights and the bias stay at block 0. An entry of a layer depends on its own row of
  the row arrays only, so what point `t` writes back is block `t` of the layer of the WHOLE arrays (`flushed_eq`);
  the 20 blocks tile the output (`cover`), hence the output array ends as that layer of the arrays the region finds
  (`final`), whatever those are (`V` is a parameter).
-/
import proofs.«181034_j9766755631343_1_alg».proof.Proof.KernelIdealFrameP
import proofs.«181034_j9766755631343_1_alg».proof.Proof.LibSageRounds
import Idealize.ShloMosaic.Lib.Pipeline.Value

set_option maxRecDepth 16384

noncomputable section

namespace Cert.KernelIdeal.Round2

open Cert.KernelIdeal Cert.KernelIdeal.Gen Cert.KernelIdeal.GenP Idealize.ShloMosaic Idealize.ShloMosaic.TcCoe Idealize.SL.Sem
open Idealize.ShloMosaic.Pipeline (Dat)
open Cert.MeanNet Cert.Sage

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The body's stored value is one layer of the blocks it loaded (a shape cast to the same shape is the identity). -/
theorem payload (x0 x1 : FVec Ideal S5000x128 .f32) (x2 x4 : FVec Ideal S128x128 .f32) (x3 : FVec Ideal S128 .f32) :
    k2_pay1 (F := Ideal) x0 x1 x2 x4 x3
      = conv (M := 5000) (D := 128) x0 x1 x2 x4 (shapeCast S1x128 x3 shapeCasts_S128_S1x128) := by
  unfold k2_pay1
  simp only [shapeCast_self]
  exact body_layer_plain dot_S5000x128_S128x128_S5000x128_1_0_0_1_n_n rfl none x0 x1 x2 x4 x3 bitsLt_bf16_f32 shapeCasts_S128_S1x128 broadcasts_S1x128_S5000x128

/-- The printed index maps over the 20 grid points: the row windows and the output sit at block `t`, column block 0;
    the weights and the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer of the whole arrays. -/
theorem flushed_eq (c : Dev nD) (t : Fin cfg2.N) :
    (dat2 V c).flushed 5 t = ((cfg2.win 5).blk t).view.read (Elt Ideal)
      (conv (M := 100000) (D := 128) (V c main_v49) (V c main_v37) (V c main_arg8) (V c main_arg10) (shapeCast S1x128 (V c main_arg9) shapeCasts_S128_S1x128)) := by
  show (cfg2.win 5).cut (grid2.coords t) ((dat2 V c).after 5 t) = _
  rw [after2_5]
  unfold out2_5
  rw [View.canon_unit_zero zero2]
  simp only [View.ld_unit_zero (S := S5000x128) zero2, View.ld_unit_zero (S := S128x128) zero2, View.ld_unit_zero (S := S128) zero1]
  rw [payload]
  obtain ⟨f0, f1, f2, f3, f4, f5, f6, f7, f8, f9, f10⟩ := idx_facts t
  funext j
  show conv (M := 5000) (D := 128)
      (fun y => V c main_v49 (((cfg2.win 0).blk t).view.emb y)) (fun y => V c main_v37 (((cfg2.win 1).blk t).view.emb y))
      (fun y => V c main_arg8 (((cfg2.win 2).blk t).view.emb y)) (fun y => V c main_arg10 (((cfg2.win 4).blk t).view.emb y))
      (shapeCast S1x128 (fun y => V c main_arg9 (((cfg2.win 3).blk t).view.emb y)) shapeCasts_S128_S1x128) j
    = conv (M := 100000) (D := 128) (V c main_v49) (V c main_v37) (V c main_arg8) (V c main_arg10) (shapeCast S1x128 (V c main_arg9) shapeCasts_S128_S1x128) (((cfg2.win 5).blk t).view.emb j)
  refine block_conv (V c main_v49) (V c main_v37) (V c main_arg8) (V c main_arg10) (V c main_arg9) shapeCasts_S128_S1x128
    _ _ _ _ _ _ (t.val * 5000) ?_ ?_ ?_ ?_ ?_ ?_ j
  · intro y
    exact ⟨by show win2_0.index t (0 : Fin 2) * 5000 + 1 * (y 0).val = t.val * 5000 + (y 0).val; omega,
      by show win2_0.index t (1 : Fin 2) * 128 + 1 * (y 1).val = (y 1).val; omega⟩
  · intro y
    exact ⟨by show win2_1.index t (0 : Fin 2) * 5000 + 1 * (y 0).val = t.val * 5000 + (y 0).val; omega,
      by show win2_1.index t (1 : Fin 2) * 128 + 1 * (y 1).val = (y 1).val; omega⟩
  · intro y
    exact ⟨by show win2_5.index t (0 : Fin 2) * 5000 + 1 * (y 0).val = t.val * 5000 + (y 0).val; omega,
      by show win2_5.index t (1 : Fin 2) * 128 + 1 * (y 1).val = (y 1).val; omega⟩
  · intro y
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  · intro y
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  · intro y
    funext a; apply Fin.ext
    match a with
    | ⟨0, _⟩ => show win2_3.index t (0 : Fin 1) * 128 + 1 * (y 0).val = (y 0).val; omega

/-- An index of the output array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v50).slice (win2_5.rect t)).set ↔ _
  rw [View.set_slice_whole, Rect.mem_set_unit]
  exact Iff.rfl

/-- The 20 row blocks tile the output array: row `r` is in block `r / 5000`. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : (i 0).val / 5000 < cfg2.N := by rw [show cfg2.N = 20 from N_2]; omega
  refine ⟨⟨(i 0).val / 5000, hN⟩, flush2_5 _, ?_⟩
  obtain ⟨f0, f1, f2, f3, f4, f5, f6, f7, f8, f9, f10⟩ := idx_facts ⟨(i 0).val / 5000, hN⟩
  rw [mem_blk]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [f9]
    show (i 0).val / 5000 * 5000 ≤ (i 0).val ∧ (i 0).val < (i 0).val / 5000 * 5000 + 5000
    omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    rw [f10]
    omega

/-- The output array after the region: the layer of the arrays the region finds. -/
theorem final (c : Dev nD) : (dat2 V c).arrAt 5 cfg2.N
    = conv (M := 100000) (D := 128) (V c main_v49) (V c main_v37) (V c main_arg8) (V c main_arg10) (shapeCast S1x128 (V c main_arg9) shapeCasts_S128_S1x128) :=
  (dat2 V c).arrAt_eq_of_cover 5 _ (fun t _ => flushed_eq V c t) cover

end Cert.KernelIdeal.Round2

end
-- ==== Proof.KernelGlue.lean ====
/-
  The host operations around the three pallas regions, as functions of arrays, on the extended reals.

  From the `[2, E]` edge array: the edges' source and target node numbers (`srcOf`, `dstOf`, its two rows). From the
  targets: the column of in-degree counts floored at one (`flooredCount`: ones scattered into zeros, then the maximum
  with one) and the column of their reciprocals (`recip`). From the sources, the targets and a feature array `h`:
  the sum over each node's in-neighbours of their rows (`nbrSum`: a negative source number wraps by the node count,
  rows are gathered at the sources and scattered by addition into zeros at the targets). The mean of the in-neighbours'
  rows is spelt two ways: the sums TIMES a broadcast column (`meanTimes`, at the column `recip`), and the sums DIVIDED
  BY the broadcast floored counts (`meanDiv`). They are one array (`meanTimes_recip`), because a floored count is
  never zero. The gather and the scatter are never opened: both spellings apply them to the same arguments.
-/
import proofs.«181034_j9766755631343_1_alg».proof.KernelIdeal
import proofs.«181034_j9766755631343_1_alg».proof.Proof.Gen.KernelIdeal
import proofs.«181034_j9766755631343_1_alg».proof.Proof.LibSageRounds

set_option maxRecDepth 16384

noncomputable section

namespace Cert.KernelIdeal.Glue

open Cert.KernelIdeal Cert.KernelIdeal.Gen Idealize.ShloMosaic Cert.Sage

/-- The edge array, the per-edge node numbers, a column over the nodes, a feature array. -/
abbrev Edges : Type := IVec S2x1600000 32
abbrev EdgeVec : Type := IVec S1600000 32
abbrev NodeCol : Type := FVec Ideal S100000x1 .f32
abbrev Feat : Type := FVec Ideal S100000x128 .f32

/-- Row 0 of the edge array: each edge's source node. -/
def srcOf (ei : Edges) : EdgeVec :=
  shapeCast S1600000 (extractStridedSlice S1x1600000 ![0, 0] ei slices_S2x1600000_S1x1600000_0_0) shapeCasts_S1x1600000_S1600000

/-- Row 1 of the edge array: each edge's target node. -/
def dstOf (ei : Edges) : EdgeVec :=
  shapeCast S1600000 (extractStridedSlice S1x1600000 ![1, 0] ei slices_S2x1600000_S1x1600000_1_0) shapeCasts_S1x1600000_S1600000

/-- Per node, the number of edges that target it, floored at one. -/
def flooredCount (dst : EdgeVec) : NodeCol :=
  maximumf
    (Host.scatterAdd scatter_S100000x1_S1600000x1_S1600000x1_1_0_0_1
      (broadcastInDim S100000x1 ![] bcast_S_S100000x1 (constant (F := Ideal) S_ .f32 0x00000000#32))
      (broadcastInDim S1600000x1 ![0] bcast_S1600000_S1600000x1_0 dst)
      (broadcastInDim S1600000x1 ![] bcast_S_S1600000x1 (constant (F := Ideal) S_ .f32 0x3F800000#32)))
    (broadcastInDim S100000x1 ![] bcast_S_S100000x1 (constant (F := Ideal) S_ .f32 0x3F800000#32))

/-- One over the floored count. -/
def recip (dst : EdgeVec) : NodeCol :=
  Host.divf (broadcastInDim S100000x1 ![] bcast_S_S100000x1 (constant (F := Ideal) S_ .f32 0x3F800000#32)) (flooredCount dst)

/-- Per node, the sum of its in-neighbours' rows of `h`. -/
def nbrSum (src dst : EdgeVec) (h : Feat) : Feat :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The neighbour sums times a column broadcast over the features. -/
def meanTimes (src dst : EdgeVec) (ci : NodeCol) (h : Feat) : Feat :=
  mulf (nbrSum src dst h) (broadcastInDim S100000x128 ![0, 1] bcast_S100000x1_S100000x128_0_1 ci)

/-- The neighbour sums divided by the floored counts broadcast over the features. -/
def meanDiv (src dst : EdgeVec) (h : Feat) : Feat :=
  Host.divf (nbrSum src dst h) (broadcastInDim S100000x128 ![0, 1] bcast_S100000x1_S100000x128_0_1 (flooredCount dst))

/-- Multiplying by the reciprocal column is dividing by the floored counts. -/
theorem meanTimes_recip (src dst : EdgeVec) (h : Feat) : meanTimes src dst (recip dst) h = meanDiv src dst h :=
  mean_spellings (M := 100000) (D := 128) (nbrSum src dst h) _ bcast_S_S100000x1 bcast_S_S100000x1 bcast_S_S100000x1
    bcast_S100000x1_S100000x128_0_1 bcast_S100000x1_S100000x128_0_1

end Cert.KernelIdeal.Glue

end
-- ==== Proof.KernelEntry.lean ====
/-
  The kernel program's buffers at each boundary of its @main, as functions of the launch arrays.

  @main is three host stretches, each followed by a pallas region. The first stretch computes, from the edge array,
  the edges' endpoints and the reciprocal floored in-degree column, and the mean of the in-neighbours' input rows; a
  region leaves one dense layer of the arrays it finds (Round0 / Round1 / Round2: `final`) in its output array and
  every other buffer as it was; the later stretches compute the mean of the in-neighbours' rows of the previous
  region's output, reading the endpoints and the reciprocal column the first stretch left. Walking the boundaries in
  order, the result buffer ends as three rounds (`net3`) of the launch arrays, with the mean spelt as the neighbour sums
  times the reciprocal column (`result`).
-/
import proofs.«181034_j9766755631343_1_alg».proof.Proof.KernelIdealFrameP
import proofs.«181034_j9766755631343_1_alg».proof.Proof.Round0
import proofs.«181034_j9766755631343_1_alg».proof.Proof.Round1
import proofs.«181034_j9766755631343_1_alg».proof.Proof.Round2
import proofs.«181034_j9766755631343_1_alg».proof.Proof.KernelGlue
import Idealize.ShloMosaic.Lib.StableHlo.Run

set_option maxRecDepth 16384

noncomputable section

namespace Cert.KernelIdeal.Entry

open Cert.KernelIdeal Cert.KernelIdeal.Gen Cert.KernelIdeal.GenP Cert.KernelIdeal.Glue
open Idealize.ShloMosaic Idealize.ShloMosaic.TcCoe Idealize.SL.Sem Idealize.ShloMosaic.StableHlo
open Cert.MeanNet Cert.Sage

variable (m : (ℓ : Loc nD τ sig) → Buf (Elt Ideal) ℓ) (ρ : Dev nD → PrngReg)

/-- The floor of the first two rounds: the zero word's value. -/
abbrev z : EReal := Ideal.ofBits .f32 0x00000000#32

/-- The mean of the in-neighbours' rows, as the kernel program spells it, for the launch edge array. -/
abbrev agg (c : Dev nD) : Feat → Feat :=
  meanTimes (srcOf (m ((c : Thread nD τ).loc main_arg1))) (dstOf (m ((c : Thread nD τ).loc main_arg1))) (recip (dstOf (m ((c : Thread nD τ).loc main_arg1))))

/-- The three rounds' results from the launch arrays. -/
def h1 (c : Dev nD) : Feat :=
  layerFloor (M := 100000) (D := 128) z (agg m c) (m ((c : Thread nD τ).loc main_arg0)) (m ((c : Thread nD τ).loc main_arg2)) (m ((c : Thread nD τ).loc main_arg4))
    (shapeCast S1x128 (m ((c : Thread nD τ).loc main_arg3)) shapeCasts_S128_S1x128)
def h2 (c : Dev nD) : Feat :=
  layerFloor (M := 100000) (D := 128) z (agg m c) (h1 m c) (m ((c : Thread nD τ).loc main_arg5)) (m ((c : Thread nD τ).loc main_arg7))
    (shapeCast S1x128 (m ((c : Thread nD τ).loc main_arg6)) shapeCasts_S128_S1x128)
def h3 (c : Dev nD) : Feat :=
  layerPlain (M := 100000) (D := 128) (agg m c) (h2 m c) (m ((c : Thread nD τ).loc main_arg8)) (m ((c : Thread nD τ).loc main_arg10))
    (shapeCast S1x128 (m ((c : Thread nD τ).loc main_arg9)) shapeCasts_S128_S1x128)

/-! ## After the first host stretch -/

theorem at1_v1 (c : Dev nD) : W1 m ρ c (Proc.devRef .tc main_v1) = srcOf (m ((c : Thread nD τ).loc main_arg1)) := by
  show StableHlo.after hostOps0 (W0 m ρ c) (Proc.devRef .tc main_v1) = _
  dsimp only [hostOps0]
  after_results_simp <;> rfl

theorem at1_v3 (c : Dev nD) : W1 m ρ c (Proc.devRef .tc main_v3) = dstOf (m ((c : Thread nD τ).loc main_arg1)) := by
  show StableHlo.after hostOps0 (W0 m ρ c) (Proc.devRef .tc main_v3) = _
  dsimp only [hostOps0]
  after_results_simp <;> rfl

theorem at1_v11 (c : Dev nD) : W1 m ρ c (Proc.devRef .tc main_v11) = recip (dstOf (m ((c : Thread nD τ).loc main_arg1))) := by
  show StableHlo.after hostOps0 (W0 m ρ c) (Proc.devRef .tc main_v11) = _
  dsimp only [hostOps0]
  after_results_simp <;> rfl

theorem at1_v23 (c : Dev nD) : W1 m ρ c (Proc.devRef .tc main_v23) = agg m c (m ((c : Thread nD τ).loc main_arg0)) := by
  show StableHlo.after hostOps0 (W0 m ρ c) (Proc.devRef .tc main_v23) = _
  dsimp only [hostOps0]
  after_results_simp <;> rfl

theorem at1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results_simp <;> rfl

theorem at1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results_simp <;> rfl

theorem at1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results_simp <;> rfl

theorem at1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results_simp <;> rfl

theorem at1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp <;> rfl

theorem at1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp <;> rfl

theorem at1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results_simp <;> rfl

theorem at1_arg8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results_simp <;> rfl

theorem at1_arg9 (c : Dev nD) : W1 m ρ c (Proc.devRef .tc main_arg9) = m ((c : Thread nD τ).loc main_arg9) := by
  show StableHlo.after hostOps0 (W0 m ρ c) (Proc.devRef .tc main_arg9) = _
  dsimp only [hostOps0]
  after_results_simp <;> rfl

theorem at1_arg10 (c : Dev nD) : W1 m ρ c (Proc.devRef .tc main_arg10) = m ((c : Thread nD τ).loc main_arg10) := by
  show StableHlo.after hostOps0 (W0 m ρ c) (Proc.devRef .tc main_arg10) = _
  dsimp only [hostOps0]
  after_results_simp <;> rfl

/-! ## After region 0: its output holds the first round; every other buffer is as the region found it -/

theorem at2_v24 (c : Dev nD) : W2 m ρ c (Proc.devRef .tc main_v24) = h1 m c := by
  refine (W2_arr m ρ c 5).trans ((Round0.final (V1 m ρ) c).trans ?_)
  have e0 : V1 m ρ c main_v23 = agg m c (m ((c : Thread nD τ).loc main_arg0)) := at1_v23 m ρ c
  have e1 : V1 m ρ c main_arg0 = m ((c : Thread nD τ).loc main_arg0) := at1_arg0 m ρ c
  have e2 : V1 m ρ c main_arg2 = m ((c : Thread nD τ).loc main_arg2) := at1_arg2 m ρ c
  have e3 : V1 m ρ c main_arg3 = m ((c : Thread nD τ).loc main_arg3) := at1_arg3 m ρ c
  have e4 : V1 m ρ c main_arg4 = m ((c : Thread nD τ).loc main_arg4) := at1_arg4 m ρ c
  rw [e0, e1, e2, e3, e4]
  rfl

theorem at2_v1 (c : Dev nD) : W2 m ρ c (Proc.devRef .tc main_v1) = srcOf (m ((c : Thread nD τ).loc main_arg1)) :=
  (W2_of_ne m ρ c main_v1 (by decide)).trans (at1_v1 m ρ c)

theorem at2_v3 (c : Dev nD) : W2 m ρ c (Proc.devRef .tc main_v3) = dstOf (m ((c : Thread nD τ).loc main_arg1)) :=
  (W2_of_ne m ρ c main_v3 (by decide)).trans (at1_v3 m ρ c)

theorem at2_v11 (c : Dev nD) : W2 m ρ c (Proc.devRef .tc main_v11) = recip (dstOf (m ((c : Thread nD τ).loc main_arg1))) :=
  (W2_of_ne m ρ c main_v11 (by decide)).trans (at1_v11 m ρ c)

theorem at2_arg5 (c : Dev nD) : W2 m ρ c (Proc.devRef .tc main_arg5) = m ((c : Thread nD τ).loc main_arg5) :=
  (W2_of_ne m ρ c main_arg5 (by decide)).trans (at1_arg5 m ρ c)

theorem at2_arg6 (c : Dev nD) : W2 m ρ c (Proc.devRef .tc main_arg6) = m ((c : Thread nD τ).loc main_arg6) :=
  (W2_of_ne m ρ c main_arg6 (by decide)).trans (at1_arg6 m ρ c)

theorem at2_arg7 (c : Dev nD) : W2 m ρ c (Proc.devRef .tc main_arg7) = m ((c : Thread nD τ).loc main_arg7) :=
  (W2_of_ne m ρ c main_arg7 (by decide)).trans (at1_arg7 m ρ c)

theorem at2_arg8 (c : Dev nD) : W2 m ρ c (Proc.devRef .tc main_arg8) = m ((c : Thread nD τ).loc main_arg8) :=
  (W2_of_ne m ρ c main_arg8 (by decide)).trans (at1_arg8 m ρ c)

theorem at2_arg9 (c : Dev nD) : W2 m ρ c (Proc.devRef .tc main_arg9) = m ((c : Thread nD τ).loc main_arg9) :=
  (W2_of_ne m ρ c main_arg9 (by decide)).trans (at1_arg9 m ρ c)

theorem at2_arg10 (c : Dev nD) : W2 m ρ c (Proc.devRef .tc main_arg10) = m ((c : Thread nD τ).loc main_arg10) :=
  (W2_of_ne m ρ c main_arg10 (by decide)).trans (at1_arg10 m ρ c)

/-! ## After the second host stretch -/

theorem at3_v36 (c : Dev nD) : W3 m ρ c (Proc.devRef .tc main_v36) = agg m c (h1 m c) := by
  show StableHlo.after hostOps1 (W2 m ρ c) (Proc.devRef .tc main_v36) = _
  dsimp only [hostOps1]
  after_results_simp
  rw [at2_v1 m ρ c, at2_v3 m ρ c, at2_v11 m ρ c, at2_v24 m ρ c]
  rfl

theorem at3_v24 (c : Dev nD) : W3 m ρ c (Proc.devRef .tc main_v24) = h1 m c := by
  refine Eq.trans ?_ (at2_v24 m ρ c)
  show StableHlo.after hostOps1 (W2 m ρ c) (Proc.devRef .tc main_v24) = _
  dsimp only [hostOps1]
  after_results_simp

theorem at3_v1 (c : Dev nD) : W3 m ρ c (Proc.devRef .tc main_v1) = srcOf (m ((c : Thread nD τ).loc main_arg1)) := by
  refine Eq.trans ?_ (at2_v1 m ρ c)
  show StableHlo.after hostOps1 (W2 m ρ c) (Proc.devRef .tc main_v1) = _
  dsimp only [hostOps1]
  after_results_simp

theorem at3_v3 (c : Dev nD) : W3 m ρ c (Proc.devRef .tc main_v3) = dstOf (m ((c : Thread nD τ).loc main_arg1)) := by
  refine Eq.trans ?_ (at2_v3 m ρ c)
  show StableHlo.after hostOps1 (W2 m ρ c) (Proc.devRef .tc main_v3) = _
  dsimp only [hostOps1]
  after_results_simp

theorem at3_v11 (c : Dev nD) : W3 m ρ c (Proc.devRef .tc main_v11) = recip (dstOf (m ((c : Thread nD τ).loc main_arg1))) := by
  refine Eq.trans ?_ (at2_v11 m ρ c)
  show StableHlo.after hostOps1 (W2 m ρ c) (Proc.devRef .tc main_v11) = _
  dsimp only [hostOps1]
  after_results_simp

theorem at3_arg5 (c : Dev nD) : W3 m ρ c (Proc.devRef .tc main_arg5) = m ((c : Thread nD τ).loc main_arg5) := by
  refine Eq.trans ?_ (at2_arg5 m ρ c)
  show StableHlo.after hostOps1 (W2 m ρ c) (Proc.devRef .tc main_arg5) = _
  dsimp only [hostOps1]
  after_results_simp

theorem at3_arg6 (c : Dev nD) : W3 m ρ c (Proc.devRef .tc main_arg6) = m ((c : Thread nD τ).loc main_arg6) := by
  refine Eq.trans ?_ (at2_arg6 m ρ c)
  show StableHlo.after hostOps1 (W2 m ρ c) (Proc.devRef .tc main_arg6) = _
  dsimp only [hostOps1]
  after_results_simp

theorem at3_arg7 (c : Dev nD) : W3 m ρ c (Proc.devRef .tc main_arg7) = m ((c : Thread nD τ).loc main_arg7) := by
  refine Eq.trans ?_ (at2_arg7 m ρ c)
  show StableHlo.after hostOps1 (W2 m ρ c) (Proc.devRef .tc main_arg7) = _
  dsimp only [hostOps1]
  after_results_simp

theorem at3_arg8 (c : Dev nD) : W3 m ρ c (Proc.devRef .tc main_arg8) = m ((c : Thread nD τ).loc main_arg8) := by
  refine Eq.trans ?_ (at2_arg8 m ρ c)
  show StableHlo.after hostOps1 (W2 m ρ c) (Proc.devRef .tc main_arg8) = _
  dsimp only [hostOps1]
  after_results_simp

theorem at3_arg9 (c : Dev nD) : W3 m ρ c (Proc.devRef .tc main_arg9) = m ((c : Thread nD τ).loc main_arg9) := by
  refine Eq.trans ?_ (at2_arg9 m ρ c)
  show StableHlo.after hostOps1 (W2 m ρ c) (Proc.devRef .tc main_arg9) = _
  dsimp only [hostOps1]
  after_results_simp

theorem at3_arg10 (c : Dev nD) : W3 m ρ c (Proc.devRef .tc main_arg10) = m ((c : Thread nD τ).loc main_arg10) := by
  refine Eq.trans ?_ (at2_arg10 m ρ c)
  show StableHlo.after hostOps1 (W2 m ρ c) (Proc.devRef .tc main_arg10) = _
  dsimp only [hostOps1]
  after_results_simp

/-! ## After region 1 -/

theorem at4_v37 (c : Dev nD) : W4 m ρ c (Proc.devRef .tc main_v37) = h2 m c := by
  refine (W4_arr m ρ c 5).trans ((Round1.final (V3 m ρ) c).trans ?_)
  have e0 : V3 m ρ c main_v36 = agg m c (h1 m c) := at3_v36 m ρ c
  have e1 : V3 m ρ c main_v24 = h1 m c := at3_v24 m ρ c
  have e2 : V3 m ρ c main_arg5 = m ((c : Thread nD τ).loc main_arg5) := at3_arg5 m ρ c
  have e3 : V3 m ρ c main_arg6 = m ((c : Thread nD τ).loc main_arg6) := at3_arg6 m ρ c
  have e4 : V3 m ρ c main_arg7 = m ((c : Thread nD τ).loc main_arg7) := at3_arg7 m ρ c
  rw [e0, e1, e2, e3, e4]
  rfl

theorem at4_v1 (c : Dev nD) : W4 m ρ c (Proc.devRef .tc main_v1) = srcOf (m ((c : Thread nD τ).loc main_arg1)) :=
  (W4_of_ne m ρ c main_v1 (by decide)).trans (at3_v1 m ρ c)

theorem at4_v3 (c : Dev nD) : W4 m ρ c (Proc.devRef .tc main_v3) = dstOf (m ((c : Thread nD τ).loc main_arg1)) :=
  (W4_of_ne m ρ c main_v3 (by decide)).trans (at3_v3 m ρ c)

theorem at4_v11 (c : Dev nD) : W4 m ρ c (Proc.devRef .tc main_v11) = recip (dstOf (m ((c : Thread nD τ).loc main_arg1))) :=
  (W4_of_ne m ρ c main_v11 (by decide)).trans (at3_v11 m ρ c)

theorem at4_arg8 (c : Dev nD) : W4 m ρ c (Proc.devRef .tc main_arg8) = m ((c : Thread nD τ).loc main_arg8) :=
  (W4_of_ne m ρ c main_arg8 (by decide)).trans (at3_arg8 m ρ c)

theorem at4_arg9 (c : Dev nD) : W4 m ρ c (Proc.devRef .tc main_arg9) = m ((c : Thread nD τ).loc main_arg9) :=
  (W4_of_ne m ρ c main_arg9 (by decide)).trans (at3_arg9 m ρ c)

theorem at4_arg10 (c : Dev nD) : W4 m ρ c (Proc.devRef .tc main_arg10) = m ((c : Thread nD τ).loc main_arg10) :=
  (W4_of_ne m ρ c main_arg10 (by decide)).trans (at3_arg10 m ρ c)

/-! ## After the third host stretch -/

theorem at5_v49 (c : Dev nD) : W5 m ρ c (Proc.devRef .tc main_v49) = agg m c (h2 m c) := by
  show StableHlo.after hostOps2 (W4 m ρ c) (Proc.devRef .tc main_v49) = _
  dsimp only [hostOps2]
  after_results_simp
  rw [at4_v1 m ρ c, at4_v3 m ρ c, at4_v11 m ρ c, at4_v37 m ρ c]
  rfl

theorem at5_v37 (c : Dev nD) : W5 m ρ c (Proc.devRef .tc main_v37) = h2 m c := by
  refine Eq.trans ?_ (at4_v37 m ρ c)
  show StableHlo.after hostOps2 (W4 m ρ c) (Proc.devRef .tc main_v37) = _
  dsimp only [hostOps2]
  after_results_simp

theorem at5_arg8 (c : Dev nD) : W5 m ρ c (Proc.devRef .tc main_arg8) = m ((c : Thread nD τ).loc main_arg8) := by
  refine Eq.trans ?_ (at4_arg8 m ρ c)
  show StableHlo.after hostOps2 (W4 m ρ c) (Proc.devRef .tc main_arg8) = _
  dsimp only [hostOps2]
  after_results_simp

theorem at5_arg9 (c : Dev nD) : W5 m ρ c (Proc.devRef .tc main_arg9) = m ((c : Thread nD τ).loc main_arg9) := by
  refine Eq.trans ?_ (at4_arg9 m ρ c)
  show StableHlo.after hostOps2 (W4 m ρ c) (Proc.devRef .tc main_arg9) = _
  dsimp only [hostOps2]
  after_results_simp

theorem at5_arg10 (c : Dev nD) : W5 m ρ c (Proc.devRef .tc main_arg10) = m ((c : Thread nD τ).loc main_arg10) := by
  refine Eq.trans ?_ (at4_arg10 m ρ c)
  show StableHlo.after hostOps2 (W4 m ρ c) (Proc.devRef .tc main_arg10) = _
  dsimp only [hostOps2]
  after_results_simp

/-! ## After region 2: the result -/

theorem at6_v50 (c : Dev nD) : W6 m ρ c (Proc.devRef .tc main_v50) = h3 m c := by
  refine (W6_arr m ρ c 5).trans ((Round2.final (V5 m ρ) c).trans ?_)
  have e0 : V5 m ρ c main_v49 = agg m c (h2 m c) := at5_v49 m ρ c
  have e1 : V5 m ρ c main_v37 = h2 m c := at5_v37 m ρ c
  have e2 : V5 m ρ c main_arg8 = m ((c : Thread nD τ).loc main_arg8) := at5_arg8 m ρ c
  have e3 : V5 m ρ c main_arg9 = m ((c : Thread nD τ).loc main_arg9) := at5_arg9 m ρ c
  have e4 : V5 m ρ c main_arg10 = m ((c : Thread nD τ).loc main_arg10) := at5_arg10 m ρ c
  rw [e0, e1, e2, e3, e4]
  rfl

/-- The result buffer after @main: three rounds of the launch arrays. -/
theorem result (c : Dev nD) : W6 m ρ c (Proc.devRef .tc main_v50)
    = net3 (M := 100000) (D := 128) z (agg m c) (m ((c : Thread nD τ).loc main_arg0))
        (m ((c : Thread nD τ).loc main_arg2)) (m ((c : Thread nD τ).loc main_arg4)) (m ((c : Thread nD τ).loc main_arg5)) (m ((c : Thread nD τ).loc main_arg7))
        (m ((c : Thread nD τ).loc main_arg8)) (m ((c : Thread nD τ).loc main_arg10))
        (shapeCast S1x128 (m ((c : Thread nD τ).loc main_arg3)) shapeCasts_S128_S1x128)
        (shapeCast S1x128 (m ((c : Thread nD τ).loc main_arg6)) shapeCasts_S128_S1x128)
        (shapeCast S1x128 (m ((c : Thread nD τ).loc main_arg9)) shapeCasts_S128_S1x128) :=
  (at6_v50 m ρ c).trans rfl

end Cert.KernelIdeal.Entry

end
-- ==== Proof.KernelRun.lean ====
/-
  The kernel program's run with its result buffer named.

  Every weakly fair execution of the kernel's @main terminates without a fault; its final memory holds, at every
  buffer no scope owns, what the last boundary of @main holds (`W6`). The frame certificate reads the argument
  buffers off that; here the result buffer is read off it too (`run_named`: the same launch over the same segments,
  the last reading extended by one buffer), and then replaced by its value as a function of the launch arrays
  (KernelEntry's `result`): `run`, at the extended reals.
-/
import proofs.«181034_j9766755631343_1_alg».proof.Proof.KernelIdealFrameP
import proofs.«181034_j9766755631343_1_alg».proof.Proof.KernelEntry

set_option maxRecDepth 16384

noncomputable section

namespace Cert.KernelIdeal.ValueRun

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main from any memory with zero counters: it terminates, nothing faulting, the result buffer ends at the
    last boundary's contents and the argument arrays as launched. -/
theorem run_named : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Named

/-- At the extended reals the result buffer ends as three rounds of the launch arrays. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v50) = Entry.h3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (Entry.at6_v50 m ρ c), (h c).2⟩) (run_named m ρ)

end Cert.KernelIdeal.ValueRun

end
-- ==== Proof.RefRounds.lean ====
/-
  The reference program's result, as three rounds of the launch arrays.

  The reference is one straight line of host operations. Its result's composed term, read from the inside out, is:
  the edges' endpoints (two rows of the edge array), the neighbour sums of a feature array (gather at the sources,
  scatter-add at the targets), their quotient by the floored in-degree counts, two `dot_general`s and a broadcast
  bias, a maximum with zero after the first two rounds. The dense part of each round is `hidden` / `conv` (LibSageRounds'
  host forms); what remains is, operation for operation, the kernel program's own host spelling of the neighbourhood
  mean by division (`meanDiv`): the two programs print the same gather, scatter and broadcast records.
-/
import proofs.«181034_j9766755631343_1_alg».proof.Proof.Gen.ReferenceIdeal.Run
import proofs.«181034_j9766755631343_1_alg».proof.Proof.KernelGlue

set_option maxRecDepth 16384

noncomputable section

namespace Cert.ReferenceIdeal.Rounds

open Cert.ReferenceIdeal Cert.ReferenceIdeal.Gen Idealize.ShloMosaic Idealize.ShloMosaic.TcCoe Idealize.SL.Sem
open Cert.MeanNet Cert.Sage Cert.KernelIdeal.Glue

/-- The reference's result: three rounds, the mean by division. -/
theorem result_eq (m : (ℓ : Loc nD τ sig) → Buf (Elt Ideal) ℓ) (c : Dev nD) :
    Cert.ReferenceIdeal.Value.res_main_v77 (F := Ideal) m c
      = net3 (M := 100000) (D := 128) (Ideal.ofBits .f32 0x00000000#32)
          (meanDiv (srcOf (m ((c.tc : Thread nD τ).loc main_arg1))) (dstOf (m ((c.tc : Thread nD τ).loc main_arg1))))
          (m ((c.tc : Thread nD τ).loc main_arg0))
          (m ((c.tc : Thread nD τ).loc main_arg2)) (m ((c.tc : Thread nD τ).loc main_arg4)) (m ((c.tc : Thread nD τ).loc main_arg5)) (m ((c.tc : Thread nD τ).loc main_arg7))
          (m ((c.tc : Thread nD τ).loc main_arg8)) (m ((c.tc : Thread nD τ).loc main_arg10))
          (shapeCast Cert.KernelIdeal.S1x128 (m ((c.tc : Thread nD τ).loc main_arg3)) Cert.KernelIdeal.Gen.shapeCasts_S128_S1x128)
          (shapeCast Cert.KernelIdeal.S1x128 (m ((c.tc : Thread nD τ).loc main_arg6)) Cert.KernelIdeal.Gen.shapeCasts_S128_S1x128)
          (shapeCast Cert.KernelIdeal.S1x128 (m ((c.tc : Thread nD τ).loc main_arg9)) Cert.KernelIdeal.Gen.shapeCasts_S128_S1x128) := by
  have hP := fun (a h : FVec Ideal S100000x128 .f32) (wl wr : FVec Ideal S128x128 .f32) (b : FVec Ideal S128 .f32) =>
    host_layer_plain (M := 100000) (D := 128) dot_S100000x128_S128x128_S100000x128_1_0_0_1_n_n rfl none a h wl wr b
      bcast_S128_S1x128_1 bcast_S1x128_S100000x128_0_1 Cert.KernelIdeal.Gen.shapeCasts_S128_S1x128
  have hF := fun (a h : FVec Ideal S100000x128 .f32) (wl wr : FVec Ideal S128x128 .f32) (b : FVec Ideal S128 .f32) =>
    host_layer_floor (M := 100000) (D := 128) dot_S100000x128_S128x128_S100000x128_1_0_0_1_n_n rfl none 0x00000000#32 a h wl wr b
      bcast_S_S100000x128 bcast_S128_S1x128_1 bcast_S1x128_S100000x128_0_1 Cert.KernelIdeal.Gen.shapeCasts_S128_S1x128
  unfold Cert.ReferenceIdeal.Value.res_main_v77
  rw [hP, hF, hF]
  rfl

end Cert.ReferenceIdeal.Rounds

end
-- ==== Proof.lean ====
/-
  Three rounds of a mean-aggregating graph layer: a Pallas kernel per round against one jnp program.

  Both programs take node features `x` (100000 × 128), an edge array (2 × 1600000) and, per round, two 128 × 128
  weight matrices and a bias vector. A round replaces every node's row by
  `mean of its in-neighbours' rows · Wl + bias + its own row · Wr`, followed in the first two rounds by a maximum
  with zero. In both programs the sum over in-neighbours is the same pair of host operations (a gather at the edges'
  sources, a scatter-add at their targets), and the in-degree counts are ones scattered the same way and floored at
  one. They differ in two places only:

  * the mean: the kernel program multiplies the sums by the column `1 / max(count, 1)`, computed once; the reference
    divides the sums by `max(count, 1)` in every round. A floored count is at least one, hence not zero, and for a
    divisor that is not zero the product with the reciprocal is the quotient on EVERY extended real — so the two means
    are one array, and no finiteness of the inputs is used;
  * the dense part: the kernel program runs it in a pallas region over 20 blocks of 5000 rows, as two matrix products
    into a zero accumulator (operands narrowed to bf16, which is the identity on extended reals), a broadcast bias row
    and a maximum with a zero splat; the reference as two `dot_general`s over the whole arrays, a broadcast bias and a
    maximum with a broadcast zero. An entry of a round depends on its own row only, so the 20 row blocks are the rows
    of the round of the whole arrays, and both are the same sums of products in the same grouping.

  The modules: LibSageRounds (the rounds as functions of whole arrays, the two spellings of the mean, the host and body forms
  of the dense part, rows of a block), Round0 / Round1 / Round2 (what each region leaves in its output array),
  KernelGlue (the host operations as functions), KernelEntry (the kernel program's buffers at each boundary of its
  @main), KernelRun (its run with the result named), RefRounds (the reference's result). The frames of the two kernel
  programs are the generated frame certificates; the reference's frame is its generated run with the result dropped;
  no rewrite was applied by the idealization, so `preserves` asks nothing.
-/
import proofs.«181034_j9766755631343_1_alg».proof.Defs
import proofs.«181034_j9766755631343_1_alg».proof.Proof.Gen.Kernel
import proofs.«181034_j9766755631343_1_alg».proof.Proof.Gen.KernelIdeal
import proofs.«181034_j9766755631343_1_alg».proof.Proof.Gen.ReferenceIdeal
import proofs.«181034_j9766755631343_1_alg».proof.Proof.Gen.Pre_finite_inputs
import proofs.«181034_j9766755631343_1_alg».proof.Proof.KernelFrameP
import proofs.«181034_j9766755631343_1_alg».proof.Proof.KernelIdealFrameP
import proofs.«181034_j9766755631343_1_alg».proof.Proof.Gen.ReferenceIdeal.Run
import proofs.«181034_j9766755631343_1_alg».proof.Proof.KernelRun
import proofs.«181034_j9766755631343_1_alg».proof.Proof.RefRounds
import Idealize.ShloMosaic.Adequacy
import Idealize.ShloMosaic.Init

set_option maxRecDepth 16384

noncomputable section

namespace Cert.Proof

open Idealize.ShloMosaic Idealize.SL.Sem

/-- The word-level kernel program terminates without a fault and leaves its arguments as launched. -/
theorem frame_kernel : Cert.frame_Kernel := fun m ρ _ => Cert.Kernel.GenP.frame m ρ

/-- So does the idealized kernel program. -/
theorem frame_ideal : Cert.frame_KernelIdeal := fun m ρ _ => Cert.KernelIdeal.GenP.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments, both programs end with three rounds of the
    launch arrays in their result buffers; the kernel program's mean by the reciprocal column is the reference's mean
    by division. -/
theorem algebraic : Cert.algebraic_KernelIdeal_ReferenceIdeal := by
  intro m ρ m' ρ' _ hagree
  refine ⟨fun c => Cert.KernelIdeal.Entry.h3 m c, Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Rounds.result_eq, a0, a1, a2, a3, a4, a5, a6, a7, a8, a9, a10]
  have hA : Cert.KernelIdeal.Entry.agg m c
      = Cert.KernelIdeal.Glue.meanDiv
          (Cert.KernelIdeal.Glue.srcOf (m ((c.tc : Thread Cert.KernelIdeal.nD Cert.KernelIdeal.τ).loc Cert.KernelIdeal.main_arg1)))
          (Cert.KernelIdeal.Glue.dstOf (m ((c.tc : Thread Cert.KernelIdeal.nD Cert.KernelIdeal.τ).loc Cert.KernelIdeal.main_arg1))) :=
    funext fun h => Cert.KernelIdeal.Glue.meanTimes_recip _ _ h
  rw [← hA]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
